-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) (main_arg1 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  main_v8
-- ==== Kernel.lean ====
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x16384 : Shape := ⟨2, ![1, 16384]⟩
abbrev S1024x512 : Shape := ⟨2, ![1024, 512]⟩
abbrev S2048x512 : Shape := ⟨2, ![2048, 512]⟩
abbrev S1024x1 : Shape := ⟨2, ![1024, 1]⟩
abbrev S1x2048 : Shape := ⟨2, ![1, 2048]⟩
abbrev S1024x2048 : Shape := ⟨2, ![1024, 2048]⟩
abbrev S1024 : Shape := ⟨1, ![1024]⟩

abbrev nBuf : Space → Nat
  | .hbm => 17
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S16384x512, .bf16⟩
  | .hbm, ⟨11, _⟩ => ⟨S16384x512, .bf16⟩
  | .hbm, ⟨12, _⟩ => ⟨S16384x1, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v21 : BitVec 1 := Scalar.cmpi .eq arg1 c7_i32
  let v22 : BitVec 32 := Scalar.extui v21
  let c0_i32_12 : BitVec 32 := 0#32
  let v23 : BitVec 1 := Scalar.cmpi .ne v22 c0_i32_12
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  reducesTo_S16384x1_S_d0_1 : S16384x1.ReducesTo [0, 1] S_
  dot_S1024x512_S2048x512_S1024x2048_1_1_0_0_n_n_wf : DotDims.WF S1024x512 S2048x512 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .bf16 = 32 ∨ (Rect.block (s := S16384x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S16384x512.size a
  hwx0_1 : ∀ i : grid0.Coords, EltTy.bits .bf16 = 32 ∨ (Rect.block (s := S16384x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S16384x1.size a
  hwx0_2 : ∀ i : grid0.Coords, EltTy.bits .f32 = 32 ∨ (Rect.block (s := S16384x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x16384.size a
  hwx0_3 : ∀ i : grid0.Coords, EltTy.bits .f32 = 32 ∨ (Rect.block (s := S1x16384) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S16384x1.size a
  hwx0_4 : ∀ i : grid0.Coords, EltTy.bits .f32 = 32 ∨ (Rect.block (s := S16384x1) S1024x1.size (cc0_transform_4 i) (hinb0_4 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf

abbrev win0_0 : Pipeline.Window sig grid0 :=
  Pipeline.Window.ofSpec (Memref.whole main_v6) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S512x16384 : Shape := ⟨2, ![512, 16384]⟩
abbrev S16384x16384 : Shape := ⟨2, ![16384, 16384]⟩
abbrev S1x16384 : Shape := ⟨2, ![1, 16384]⟩

abbrev nBuf : Space → Nat
  | .hbm => 35
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x512, .f32⟩
  | .hbm, ⟨7, _⟩ => ⟨S_, .f32⟩
  | .hbm, ⟨8, _⟩ => ⟨S16384, .f32⟩
  | .hbm, ⟨9, _⟩ => ⟨S512x16384, .f32⟩
  | .hbm, ⟨10, _⟩ => ⟨S16384x16384, .f32⟩
  | .hbm, ⟨11, _⟩ => ⟨S1x16384, .f32⟩
  | .hbm, ⟨12, _⟩ => ⟨S16384x16384, .f32⟩
  | .hbm, ⟨13, _⟩ => ⟨S16384x16384, .f32⟩
  | .hbm, ⟨14, _⟩ => ⟨S16384x16384, .f32⟩
  | .hbm, ⟨15, _⟩ => ⟨S_, .f32⟩
  | .hbm, ⟨16, _⟩ => ⟨S16384x16384, .f32⟩
  | .hbm, ⟨17, _⟩ => ⟨S16384x16384, .f32⟩
  | .hbm, ⟨18, _⟩ => ⟨S16384x16384, .f32⟩
  | .hbm, ⟨19, _⟩ => ⟨S_, .f32⟩
  | .hbm, ⟨20, _⟩ => ⟨S16384x16384, .f32⟩
  | .hbm, ⟨21, _⟩ => ⟨S16384x16384, .f32⟩
  | .hbm, ⟨22, _⟩ => ⟨S_, .f32⟩
  | .hbm, ⟨23, _⟩ => ⟨S16384, .f32⟩
  | .hbm, ⟨24, _⟩ => ⟨S16384, .f32⟩
  | .hbm, ⟨25, _⟩ => ⟨S_, .f32⟩
  | .hbm, ⟨26, _⟩ => ⟨S16384, .f32⟩
  | .hbm, ⟨27, _⟩ => ⟨S16384, .f32⟩
  | .hbm, ⟨28, _⟩ => ⟨S_, .f32⟩
  | .hbm, ⟨29, _⟩ => ⟨S16384, .f32⟩
  | .hbm, ⟨30, _⟩ => ⟨S16384, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  transposes_S16384x512_S512x16384_1_0 : S16384x512.Transposes [1, 0] S512x16384
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S16384_d1 : S16384x16384.ReducesTo [1] S16384
  bcast_S_S16384 : S_.BroadcastsInDim S16384 (![] : Fin 0 → Fin S16384.rank)
  reducesTo_S16384_S_d0 : S16384.ReducesTo [0] S_
  dot_S16384x512_S512x16384_S16384x16384_1_0_0_1_n_n_wf : DotDims.WF S16384x512 S512x16384 S16384x16384 [1] [0] [0] [1] [] []

variable [Facts₀]

def dot_S16384x512_S512x16384_S16384x16384_1_0_0_1_n_n : DotDims S16384x512 S512x16384 S16384x16384 where
  lhsContracting := [1]
  rhsContracting := [0]
  lhsNonContracting := [0]
  rhsNonContracting := [1]
  lhsBatch := []
  rhsBatch := []
  wf := dot_S16384x512_S512x16384_S16384x16384_1_0_0_1_n_n_wf

class Facts : Prop extends Facts₀ where

variable [Facts]
-- ==== Proof.KernelPieces.lean ====
/-
  What each control case of the kernel body leaves behind, as values of the blocks it loads.

  The body keeps a running row minimum in a scratch column. At the first column block of a row sweep it first
  resets the scratch to `+∞`; at every column block it replaces the scratch by the minimum of the scratch and
  the block's row minimum (`k0_pay2`); at the last column block it also stores the output column, the margin
  loss of the finished minimum and the block's squared row norms (`k0_pay3`). Each lemma reads the stores a case
  performed back as one value: every store covers its whole buffer, and every load reads a whole buffer.
-/
import proofs.«118089_j86887188398391_2_alg».proof.Proof.Gen.KernelIdeal.Frame
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem Idealize.ShloMosaic.Tactic
open Cert.KernelIdeal Cert.KernelIdeal.Gen

variable {F : FTy → Type} [FloatOps F]

theorem hz : (![0, 0] : Fin 2 → Nat) = fun _ => 0 := funext fun a => by fin_cases a <;> rfl

/-- First column block of a sweep: the scratch ends at the minimum of `+∞` and the block's row minimum. -/
theorem scratch_first (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i) (x0 : Vec F S1024x512 .bf16) (x1 : Vec F S2048x512 .bf16) (x2 : Vec F S1024x1 .f32) (x3 : Vec F S1x2048 .f32) :
    sout0_A_0 c i arg2 harg2 arg3 harg3 arg4 harg4 arg5 harg5 arg6 harg6 arg7 harg7 hc0 hc1 x0 x1 x2 x3 = k0_pay2 x0 x1 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1) hz, View.readCov_unit_zero (S := S1024x1) _ hz]
  simp only [View.readAt_eq_ld, harg2.read_unread, harg3.read_unread, harg4.read_unread, harg5.read_unread, harg7.read_unread, View.ld_unit_zero (S := S1024x512) hz, View.ld_unit_zero (S := S2048x512) hz, View.ld_unit_zero (S := S1x2048) hz, View.ld_unit_zero (S := S1024x1) hz]

/-- A middle column block: the scratch ends at the minimum of what it held and the block's row minimum. -/
theorem scratch_middle (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i) (x0 : Vec F S1024x512 .bf16) (x1 : Vec F S2048x512 .bf16) (x2 : Vec F S1024x1 .f32) (x3 : Vec F S1x2048 .f32) (xs0 : Vec F S1024x1 .f32) :
    sout0_B_0 c i arg2 harg2 arg3 harg3 arg4 harg4 arg5 harg5 arg6 harg6 arg7 harg7 hc0 hc1 x0 x1 x2 x3 xs0 = k0_pay2 x0 x1 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero hz]
  simp only [View.readAt_eq_ld, harg2.read_unread, harg3.read_unread, harg4.read_unread, harg5.read_unread, harg7.read_unread, View.ld_unit_zero (S := S1024x512) hz, View.ld_unit_zero (S := S2048x512) hz, View.ld_unit_zero (S := S1x2048) hz, View.ld_unit_zero (S := S1024x1) hz]

/-- The last column block: the scratch is updated in the same way, -/
theorem scratch_last (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .f32) (x3 : Vec F S1x2048 .f32) (xs0 : Vec F S1024x1 .f32) :
    sout0_C_0 c i arg2 harg2 arg3 harg3 arg4 harg4 arg5 harg5 arg6 harg6 arg7 harg7 hc0 hc1 x0 x1 x2 x3 xs0 = k0_pay2 x0 x1 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readAt_eq_ld, harg2.read_unread, harg3.read_unread, harg4.read_unread, harg5.read_unread, harg7.read_unread, View.ld_unit_zero (S := S1024x512) hz, View.ld_unit_zero (S := S2048x512) hz, View.ld_unit_zero (S := S1x2048) hz, View.ld_unit_zero (S := S1024x1) hz]

/-- and the output column is the margin loss of the updated scratch and the block's squared row norms. -/
theorem out_last (c : Dev nD) (i : grid0.Coords) (arg2 : Memref sig .tc .vmem S1024x512 .bf16) (harg2 : arg2.IsWhole) (arg3 : Memref sig .tc .vmem S2048x512 .bf16) (harg3 : arg3.IsWhole) (arg4 : Memref sig .tc .vmem S1024x1 .f32) (harg4 : arg4.IsWhole) (arg5 : Memref sig .tc .vmem S1x2048 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i) (x0 : Vec F S1024x512 .bf16) (x1 : Vec F S2048x512 .bf16) (x2 : Vec F S1024x1 .f32) (x3 : Vec F S1x2048 .f32) (xs0 : Vec F S1024x1 .f32) :
    out0_C_4 c i arg2 harg2 arg3 harg3 arg4 harg4 arg5 harg5 arg6 harg6 arg7 harg7 hc0 hc1 x0 x1 x2 x3 xs0 = k0_pay3 (k0_pay2 x0 x1 x3 xs0) x2 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz, View.readCov_unit_zero (S := S1024x1) _ hz]
  simp only [View.readAt_eq_ld, harg2.read_unread, harg3.read_unread, harg4.read_unread, harg5.read_unread, harg7.read_unread, View.ld_unit_zero (S := S1024x512) hz, View.ld_unit_zero (S := S2048x512) hz, View.ld_unit_zero (S := S1x2048) hz, View.ld_unit_zero (S := S1024x1) hz]

end Cert.KernelIdeal.Pieces

end
-- ==== Proof.Spec.lean ====
/-
  The mathematics both programs share, on the extended reals.

  For rows `a_R` of the first view and `b_Q` of the second, with squared norms `s1 R`, `s2 Q` and inner
  products `g R Q`, the reference takes, per row `R`, the minimum over `Q` of the clamped squared distance
  `max ((s1 R + s2 Q) - 2 g R Q) 0`. The kernel instead takes the minimum over `Q` of `s2 Q - 2 g R Q` and
  only afterwards adds `s1 R` and clamps at `0`. The map `x ↦ max (x + s) z` is monotone on the extended
  reals, and a minimum over a nonempty finite set is attained, so a monotone map commutes with it:
  `clamp_shift_min`. Only associativity and commutativity of `+` and monotonicity of `+` are used, so no
  finiteness of the entries is needed.
-/
import Idealize.ShloMosaic.PureOps.Ideal
import Idealize.ShloMosaic.PureOps.Ideal.Laws
import Idealize.ShloMosaic.Lib.ValueIdx

noncomputable section

namespace Cert.Spec

open Idealize.ShloMosaic

/-- The f32 pattern of `+∞` denotes the top of the extended reals. -/
theorem inf_eq_top : (Ideal.ofBits .f32 0x7F800000#32 : EReal) = ⊤ := by
  simp [Ideal.ofBits, Ideal.ieee]

/-- A lower bound of a minimum taken from `⊤` over a whole finite type is a lower bound of every term. -/
theorem le_fold_min_top {ι : Type*} [Fintype ι] (f : ι → EReal) (w : EReal) :
    w ≤ Finset.univ.fold min (⊤ : EReal) f ↔ ∀ Q, w ≤ f Q := by
  rw [Finset.le_fold_min]
  exact ⟨fun h Q => h.2 Q (Finset.mem_univ _), fun h => ⟨le_top, fun Q _ => h Q⟩⟩

/-- Shifting by `s` and clamping at `z` commutes with the minimum over a nonempty finite index set:
    if `μ` is the greatest lower bound of the `u Q - x Q`, then `max (μ + s) z` is the minimum, taken from `⊤`,
    of the `max ((s + u Q) - x Q) z`. -/
theorem clamp_shift_min {ι : Type*} [Fintype ι] [Nonempty ι] (u x : ι → EReal) (s z μ : EReal)
    (hμ : ∀ w : EReal, w ≤ μ ↔ ∀ Q, w ≤ u Q - x Q) :
    max (μ + s) z = Finset.univ.fold min (⊤ : EReal) (fun Q => max ((s + u Q) - x Q) z) := by
  obtain ⟨Q0, hQ0⟩ := Finite.exists_min (fun Q => u Q - x Q)
  have hμ0 : μ = u Q0 - x Q0 := le_antisymm ((hμ μ).mp le_rfl Q0) ((hμ _).mpr hQ0)
  have hshift : ∀ Q, (s + u Q) - x Q = (u Q - x Q) + s := fun Q => by
    rw [sub_eq_add_neg, sub_eq_add_neg, add_assoc, add_comm]
  subst hμ0
  apply le_antisymm
  · rw [le_fold_min_top]
    intro Q
    rw [hshift]
    exact max_le_max (add_le_add (hQ0 Q) le_rfl) le_rfl
  · rw [← hshift]
    exact (Finset.fold_min_le _).2 (Or.inr ⟨Q0, Finset.mem_univ _, le_rfl⟩)

/-- The rows of a one-column array are numbered by its first coordinate. -/
def columnEquiv (n : Nat) : (⟨2, ![n, 1]⟩ : Shape).Idx ≃ Fin n where
  toFun := fun (i : (⟨2, ![n, 1]⟩ : Shape).Idx) => (i 0 : Fin n)
  invFun := fun (R : Fin n) => (ValueIdx.ix2 R (0 : Fin 1) : (⟨2, ![n, 1]⟩ : Shape).Idx)
  left_inv := fun (i : (⟨2, ![n, 1]⟩ : Shape).Idx) => by
    funext a
    refine Fin.ext ?_
    match a with
    | ⟨0, _⟩ => rfl
    | ⟨1, _⟩ => have h1 : (i 1).val < 1 := ValueIdx.idx2_lt1 i; show 0 = (i 1).val; omega
  right_inv := fun _ => rfl

/-- The entries of a vector are numbered by its one coordinate. -/
def vectorEquiv (n : Nat) : (⟨1, ![n]⟩ : Shape).Idx ≃ Fin n where
  toFun := fun (j : (⟨1, ![n]⟩ : Shape).Idx) => (j 0 : Fin n)
  invFun := fun (R : Fin n) => (ValueIdx.ix1 R : (⟨1, ![n]⟩ : Shape).Idx)
  left_inv := fun (j : (⟨1, ![n]⟩ : Shape).Idx) => by
    funext a
    match a with
    | ⟨0, _⟩ => rfl
  right_inv := fun _ => rfl

/-- A sum over the indices of a one-column array is the sum over its rows. -/
theorem sum_column {n : Nat} (f : (⟨2, ![n, 1]⟩ : Shape).Idx → EReal) :
    ∑ i : (⟨2, ![n, 1]⟩ : Shape).Idx, f i = ∑ R : Fin n, f (ValueIdx.ix2 R (0 : Fin 1)) :=
  Fintype.sum_equiv (columnEquiv n) _ _ (fun i => congrArg f ((columnEquiv n).left_inv i).symm)

/-- A sum over the indices of a vector is the sum over its entries. -/
theorem sum_vector {n : Nat} (f : (⟨1, ![n]⟩ : Shape).Idx → EReal) :
    ∑ j : (⟨1, ![n]⟩ : Shape).Idx, f j = ∑ R : Fin n, f (ValueIdx.ix1 R) :=
  Fintype.sum_equiv (vectorEquiv n) _ _ (fun j => congrArg f ((vectorEquiv n).left_inv j).symm)

/-! ## The result both programs compute -/

/-- The margin loss of row `R` of the first view: over the rows `Q` of the second view, the minimum of the squared
    distance `(s1 R + s2 Q) - 2 (a_R · b_Q)` clamped at `0`; then its square root less the margin, clamped at `0`. Here
    `s1` is the column of squared norms of the first view's rows and `s2` the row of squared norms of the second's. -/
def rowLoss (s1 : (⟨2, ![16384, 1]⟩ : Shape).Idx → EReal) (s2 : (⟨2, ![1, 16384]⟩ : Shape).Idx → EReal)
    (A B : (⟨2, ![16384, 512]⟩ : Shape).Idx → EReal) (R : Fin 16384) : EReal :=
  max (Ideal.sqrt (Finset.univ.fold min (⊤ : EReal) fun Q : Fin 16384 =>
        max ((s1 (ValueIdx.ix2 R (0 : Fin 1)) + s2 (ValueIdx.ix2 (0 : Fin 1) Q))
          - (Ideal.ofBits .f32 0x40000000#32 : EReal) * ∑ k : Fin 512, A (ValueIdx.ix2 R k) * B (ValueIdx.ix2 Q k))
          (Ideal.ofBits .f32 0x00000000#32 : EReal))
      - (Ideal.ofBits .f32 0x3DCCCCCD#32 : EReal))
    (Ideal.ofBits .f32 0x00000000#32 : EReal)

/-- The mean of the row losses: their sum, from zero, divided by the number of rows. -/
def meanLoss (s1 : (⟨2, ![16384, 1]⟩ : Shape).Idx → EReal) (s2 : (⟨2, ![1, 16384]⟩ : Shape).Idx → EReal)
    (A B : (⟨2, ![16384, 512]⟩ : Shape).Idx → EReal) : EReal :=
  Ideal.div ((Ideal.ofBits .f32 0x00000000#32 : EReal) + ∑ R : Fin 16384, rowLoss s1 s2 A B R)
    (Ideal.ofBits .f32 0x46800000#32 : EReal)

end Cert.Spec

end
-- ==== Proof.LibMinReduce.lean ====
/-
  Two general readings at an index, on the extended reals, that the library has for `max` and for leading unit
  axes but not in these forms: a one-axis minimum reduction as a fold of `min` over that axis's coordinates, and a
  vector of length `a` viewed as an `[a, 1]` column.
-/
import Idealize.ShloMosaic.PureOps.Ideal.Laws
import Idealize.ShloMosaic.Lib.ValueIdx
import Idealize.ShloMosaic.Lib.Pipeline.Value

noncomputable section

namespace Cert.LibMinReduce

open Idealize.ShloMosaic Idealize.ShloMosaic.ValueIdx

/-- A float `vector.multi_reduction <minimumf>` over ONE axis, read on the extended reals at a reduced index: the
    fold of `min`, from the accumulator's value, over that axis's coordinates (the reduced index with the coordinate
    inserted). The twin of the library's reading of `<maximumf>`. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over ONE axis, read on the extended reals: the
    fold of `min`, from the initial value's element, over that axis's coordinates. -/
theorem hostReduce_minimumf_single {s t u : Shape} {a : Fin s.rank} {φ : FTy} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

/-- An `[a]` vector cast to an `[a, 1]` column reads, at `(i, u)`, the operand at `i`, whatever the unit coordinate. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibMinReduce

end
-- ==== Proof.KernelPayload.lean ====
/-
  The kernel body's arithmetic, read at one row of a block on the extended reals.

  For a block `x0` of 1024 rows of the first view, a block `x1` of 2048 rows of the second view and the 2048 squared
  norms `x3` of those rows, the matrix product contracts the feature axis, so its entry at `(r, q)` is the inner
  product `∑ k, x0 (r, k) * x1 (q, k)`; the lane reduction at row `r` is the minimum over `q`, taken from `+∞`, of
  `x3 q - 2 * (that inner product)`; the scratch update takes the minimum of this and the old scratch. The finishing
  step adds the row's own squared norm, clamps at `0`, takes the square root, subtracts the margin and clamps again.
-/
import proofs.«118089_j86887188398391_2_alg».proof.Proof.Gen.KernelIdeal.Skeleton
import proofs.«118089_j86887188398391_2_alg».proof.Proof.Spec
import proofs.«118089_j86887188398391_2_alg».proof.Proof.LibMinReduce
import Idealize.ShloMosaic.Lib.ValueLayout

noncomputable section

namespace Cert.KernelIdeal.Payload

open Idealize.ShloMosaic Idealize.ShloMosaic.ValueIdx Cert.KernelIdeal Cert.KernelIdeal.Gen

/-! ## The matrix product at an entry -/

theorem lhs_row (j : S1024x2048.Idx) (q : dot_S1024x512_S2048x512_S1024x2048_1_1_0_0_n_n.contr.Idx) : (dot_S1024x512_S2048x512_S1024x2048_1_1_0_0_n_n.lhsIdx j q 0).val = (j 0).val := by
  unfold DotDims.lhsIdx
  rw [dif_neg (show ¬(0 : Fin S1024x512.rank) ∈ dot_S1024x512_S2048x512_S1024x2048_1_1_0_0_n_n.lhsBatch by decide), dif_pos (show (0 : Fin S1024x512.rank) ∈ dot_S1024x512_S2048x512_S1024x2048_1_1_0_0_n_n.lhsNonContracting by decide)]
  rfl
theorem lhs_feat (j : S1024x2048.Idx) (q : dot_S1024x512_S2048x512_S1024x2048_1_1_0_0_n_n.contr.Idx) : (dot_S1024x512_S2048x512_S1024x2048_1_1_0_0_n_n.lhsIdx j q 1).val = (q ⟨0, by decide⟩).val :=
  dot_S1024x512_S2048x512_S1024x2048_1_1_0_0_n_n.lhsIdx_val_of_single rfl j q
theorem rhs_row (j : S1024x2048.Idx) (q : dot_S1024x512_S2048x512_S1024x2048_1_1_0_0_n_n.contr.Idx) : (dot_S1024x512_S2048x512_S1024x2048_1_1_0_0_n_n.rhsIdx j q 0).val = (j 1).val := by
  unfold DotDims.rhsIdx
  rw [dif_neg (show ¬(0 : Fin S2048x512.rank) ∈ dot_S1024x512_S2048x512_S1024x2048_1_1_0_0_n_n.rhsBatch by decide), dif_pos (show (0 : Fin S2048x512.rank) ∈ dot_S1024x512_S2048x512_S1024x2048_1_1_0_0_n_n.rhsNonContracting by decide)]
  rfl
theorem rhs_feat (j : S1024x2048.Idx) (q : dot_S1024x512_S2048x512_S1024x2048_1_1_0_0_n_n.contr.Idx) : (dot_S1024x512_S2048x512_S1024x2048_1_1_0_0_n_n.rhsIdx j q 1).val = (q ⟨0, by decide⟩).val :=
  dot_S1024x512_S2048x512_S1024x2048_1_1_0_0_n_n.rhsIdx_val_of_single rfl j q

/-- The block product at `(r, q)` is the inner product of row `r` of the left block and row `q` of the right block. -/
theorem gram_apply (x0 : FVec Ideal S1024x512 .bf16) (x1 : FVec Ideal S2048x512 .bf16) (r : Fin 1024) (q : Fin 2048) :
    matmul dot_S1024x512_S2048x512_S1024x2048_1_1_0_0_n_n none x0 x1 (constant S1024x2048 .f32 0x00000000#32) (ix2 r q)
      = ∑ k : Fin 512, x0 (ix2 r k) * x1 (ix2 q k) := by
  simp only [matmul]
  rw [Ideal.matmul_constant_zero_apply, ← Equiv.sum_comp (ValueIdx.contrEquiv1 dot_S1024x512_S2048x512_S1024x2048_1_1_0_0_n_n 512 rfl rfl).symm]
  refine Finset.sum_congr rfl fun k _ => ?_
  have hk := ValueIdx.contrEquiv1_symm_val dot_S1024x512_S2048x512_S1024x2048_1_1_0_0_n_n 512 rfl rfl k
  have el : dot_S1024x512_S2048x512_S1024x2048_1_1_0_0_n_n.lhsIdx (ix2 r q) ((ValueIdx.contrEquiv1 dot_S1024x512_S2048x512_S1024x2048_1_1_0_0_n_n 512 rfl rfl).symm k) = ix2 r k := funext fun a => Fin.ext (by
    match a with
    | ⟨0, _⟩ => exact lhs_row _ _
    | ⟨1, _⟩ => exact (lhs_feat _ _).trans hk)
  have er : dot_S1024x512_S2048x512_S1024x2048_1_1_0_0_n_n.rhsIdx (ix2 r q) ((ValueIdx.contrEquiv1 dot_S1024x512_S2048x512_S1024x2048_1_1_0_0_n_n 512 rfl rfl).symm k) = ix2 q k := funext fun a => Fin.ext (by
    match a with
    | ⟨0, _⟩ => exact rhs_row _ _
    | ⟨1, _⟩ => exact (rhs_feat _ _).trans hk)
  rw [el, er]

/-! ## The row minimum of a block -/

/-- Row `r`, column `q` of the reduced array is the index `(r, q)` of the block. -/
theorem lift_eq (r : Fin 1024) (q : Fin 2048) :
    reduces_S1024x2048_S1024.lift (ix1 r) q = ix2 r q :=
  funext fun a => Fin.ext (by
    match a with
    | ⟨0, _⟩ => rfl
    | ⟨1, _⟩ => rfl)

/-- What is minimised over a block's columns `q` at row `r`: the column's squared norm less twice the inner product. -/
abbrev shifted (x0 : FVec Ideal S1024x512 .bf16) (x1 : FVec Ideal S2048x512 .bf16) (x3 : FVec Ideal S1x2048 .f32)
    (r : Fin 1024) (q : Fin 2048) : EReal :=
  x3 (ix2 (0 : Fin 1) q) - (Ideal.ofBits .f32 0x40000000#32 : EReal) * ∑ k : Fin 512, x0 (ix2 r k) * x1 (ix2 q k)

/-- The lane minimum of a `[1024, 2048]` block at row `r`: the minimum, from `+∞`, over its 2048 columns. -/
theorem blockmin_apply (src : FVec Ideal S1024x2048 .f32) (hφ : FKind.Formats .f32)
    (hacc : (0x7F800000#32 : BitVec FTy.f32.bits) = FKind.minimumf.neutral .f32 hφ) (r : Fin 1024) :
    multiReduction (F := Ideal) (φ := .f32) .minimumf [1] S1024 src 0x7F800000#32 reduces_S1024x2048_S1024 hφ hacc (ix1 r)
      = (Finset.univ : Finset (Fin 2048)).fold min (⊤ : EReal) (fun q => src (ix2 r q)) := by
  refine (LibMinReduce.multiReduction_minimumf_single (φ := .f32) src 0x7F800000#32 reduces_S1024x2048_S1024 hφ hacc (ix1 r)).trans ?_
  refine congrArg₂ (fun b f => (Finset.univ : Finset (Fin 2048)).fold min b f) Spec.inf_eq_top (funext fun q => ?_)
  exact congrArg src (lift_eq r q)

/-- The scratch update at row `r`: the minimum of the old scratch and, over the block's columns, of `shifted`. -/
theorem rowmin_apply (x0 : FVec Ideal S1024x512 .bf16) (x1 : FVec Ideal S2048x512 .bf16) (x3 : FVec Ideal S1x2048 .f32)
    (xs : FVec Ideal S1024x1 .f32) (r : Fin 1024) :
    k0_pay2 (F := Ideal) x0 x1 x3 xs (ix2 r (0 : Fin 1))
      = min (xs (ix2 r (0 : Fin 1))) (Finset.univ.fold min (⊤ : EReal) (shifted x0 x1 x3 r)) := by
  unfold k0_pay2
  simp only [shapeCast_self]
  refine congrArg (min (xs (ix2 r (0 : Fin 1)))) ?_
  refine (LibMinReduce.shapeCast_a_a1_apply _ shapeCasts_S1024_S1024x1 r (0 : Fin 1)).trans ?_
  refine (blockmin_apply _ _ _ r).trans ?_
  refine congrArg (fun f => (Finset.univ : Finset (Fin 2048)).fold min (⊤ : EReal) f) (funext fun q => ?_)
  rw [subf_apply, mulf_apply, broadcast_apply]
  refine congrArg₂ (· - Ideal.ofBits .f32 0x40000000#32 * ·) ?_ (gram_apply x0 x1 r q)
  exact ValueIdx.broadcastTo_1b_ab_apply x3 broadcasts_S1x2048_S1024x2048 r q

/-! ## The finishing step -/

/-- The margin loss of a squared distance: clamp at `0`, square root, subtract the margin, clamp at `0`. -/
abbrev margin (d : EReal) : EReal :=
  max (Ideal.sqrt (max d (Ideal.ofBits .f32 0x00000000#32 : EReal)) - (Ideal.ofBits .f32 0x3DCCCCCD#32 : EReal)) (Ideal.ofBits .f32 0x00000000#32 : EReal)

/-- The output store at row `r`: the margin loss of the scratch plus the row's squared norm. -/
theorem finish_apply (v24 v25 : FVec Ideal S1024x1 .f32) (j : S1024x1.Idx) :
    k0_pay3 (F := Ideal) v24 v25 j = margin (v24 j + v25 j) := by
  unfold k0_pay3
  simp only [shapeCast_self]
  rfl

/-- The reset value at any index: `+∞`. -/
theorem reset_apply (j : S1024x1.Idx) : k0_pay1 (F := Ideal) j = (⊤ : EReal) := by
  unfold k0_pay1
  simp only [shapeCast_self]
  exact Spec.inf_eq_top

end Cert.KernelIdeal.Payload

end
-- ==== Proof.KernelBlocks.lean ====
/-
  Each window's block at a grid point, read back as the whole array at shifted coordinates.

  The grid has 16 row blocks by 8 column blocks, and point `t` is row block `t / 8`, column block `t % 8`. The first
  view and its squared norms are cut into blocks of 1024 rows indexed by the row block; the second view and its squared
  norms into blocks of 2048 rows (columns of the distance matrix) indexed by the column block. So entry `r` of a
  row-block window at `t` is entry `1024 * (t / 8) + r` of its array, and entry `q` of a column-block window is entry
  `2048 * (t % 8) + q`.
-/
import proofs.«118089_j86887188398391_2_alg».proof.Proof.Gen.KernelIdeal.Frame.Runs
import Idealize.ShloMosaic.Lib.ValueIdx
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The block index of every window at every grid point: the row block for the windows cut along rows of the first
    view, the column block for those cut along rows of the second view; decided once over the 128 points. -/
theorem block_index : ∀ t : Fin cfg0.N,
    (win0_0.index t 0 = t.val / 8 ∧ win0_0.index t 1 = 0)
    ∧ (win0_1.index t 0 = t.val % 8 ∧ win0_1.index t 1 = 0)
    ∧ (win0_2.index t 0 = t.val / 8 ∧ win0_2.index t 1 = 0)
    ∧ (win0_3.index t 0 = 0 ∧ win0_3.index t 1 = t.val % 8)
    ∧ (win0_4.index t 0 = t.val / 8 ∧ win0_4.index t 1 = 0) :=
  (by decide +kernel : ∀ t : Fin grid0.N,
    (win0_0.index t 0 = t.val / 8 ∧ win0_0.index t 1 = 0)
    ∧ (win0_1.index t 0 = t.val % 8 ∧ win0_1.index t 1 = 0)
    ∧ (win0_2.index t 0 = t.val / 8 ∧ win0_2.index t 1 = 0)
    ∧ (win0_3.index t 0 = 0 ∧ win0_3.index t 1 = t.val % 8)
    ∧ (win0_4.index t 0 = t.val / 8 ∧ win0_4.index t 1 = 0))

/-- A row of the first view's block is the row of the array in that row block. -/
theorem lhs_block (c : Dev nD) (t : Fin cfg0.N) (r : Fin 1024) (k : Fin 512) (R : Fin 16384)
    (hR : R.val = 1024 * (t.val / 8) + r.val) :
    (iblk m c 0 t : Vec F S1024x512 .bf16) (ix2 r k) = V m c main_v6 (ix2 R k) := by
  unfold iblk
  rw [View.read_apply]
  show V m c main_v6 _ = V m c main_v6 _
  refine congrArg (V m c main_v6) (funext fun a => Fin.ext ?_)
  match a with
  | ⟨0, _⟩ => show win0_0.index t 0 * 1024 + 1 * r.val = R.val; rw [(block_index t).1.1, hR]; omega
  | ⟨1, _⟩ => show win0_0.index t 1 * 512 + 1 * k.val = k.val; rw [(block_index t).1.2]; omega

/-- A row of the second view's block is the row of the array in that column block. -/
theorem rhs_block (c : Dev nD) (t : Fin cfg0.N) (q : Fin 2048) (k : Fin 512) (Q : Fin 16384)
    (hQ : Q.val = 2048 * (t.val % 8) + q.val) :
    (iblk m c 1 t : Vec F S2048x512 .bf16) (ix2 q k) = V m c main_v7 (ix2 Q k) := by
  unfold iblk
  rw [View.read_apply]
  show V m c main_v7 _ = V m c main_v7 _
  refine congrArg (V m c main_v7) (funext fun a => Fin.ext ?_)
  match a with
  | ⟨0, _⟩ => show win0_1.index t 0 * 2048 + 1 * q.val = Q.val; rw [(block_index t).2.1.1, hQ]; omega
  | ⟨1, _⟩ => show win0_1.index t 1 * 512 + 1 * k.val = k.val; rw [(block_index t).2.1.2]; omega

/-- An entry of the first view's squared-norm block is the entry of the column of squared norms in that row block. -/
theorem sq1_block (c : Dev nD) (t : Fin cfg0.N) (r : Fin 1024) (u : Fin 1) (R : Fin 16384)
    (hR : R.val = 1024 * (t.val / 8) + r.val) :
    (iblk m c 2 t : Vec F S1024x1 .f32) (ix2 r u) = V m c main_v2 (ix2 R (0 : Fin 1)) := by
  unfold iblk
  rw [View.read_apply]
  show V m c main_v2 _ = V m c main_v2 _
  refine congrArg (V m c main_v2) (funext fun a => Fin.ext ?_)
  match a with
  | ⟨0, _⟩ => show win0_2.index t 0 * 1024 + 1 * r.val = R.val; rw [(block_index t).2.2.1.1, hR]; omega
  | ⟨1, _⟩ => show win0_2.index t 1 * 1 + 1 * u.val = 0; rw [(block_index t).2.2.1.2]; omega

/-- An entry of the second view's squared-norm block is the entry of the row of squared norms in that column block. -/
theorem sq2_block (c : Dev nD) (t : Fin cfg0.N) (u : Fin 1) (q : Fin 2048) (Q : Fin 16384)
    (hQ : Q.val = 2048 * (t.val % 8) + q.val) :
    (iblk m c 3 t : Vec F S1x2048 .f32) (ix2 u q) = V m c main_v5 (ix2 (0 : Fin 1) Q) := by
  unfold iblk
  rw [View.read_apply]
  show V m c main_v5 _ = V m c main_v5 _
  refine congrArg (V m c main_v5) (funext fun a => Fin.ext ?_)
  match a with
  | ⟨0, _⟩ => show win0_3.index t 0 * 1 + 1 * u.val = 0; rw [(block_index t).2.2.2.1.1]; omega
  | ⟨1, _⟩ => show win0_3.index t 1 * 2048 + 1 * q.val = Q.val; rw [(block_index t).2.2.2.1.2, hQ]; omega

end Cert.KernelIdeal.Blocks

end
-- ==== Proof.KernelScratch.lean ====
/-
  What the carried scratch column holds after every grid point, and what the output block holds when it is written.

  Point `t` is row block `t / 8`, column block `t % 8`, and the points of one row sweep are visited in order. At
  the first column block the scratch becomes the minimum of `+∞` and that block's row minimum; at each later block it
  becomes the minimum of what the previous point left and that block's row minimum. Hence, by induction on the point,
  after point `t` the scratch at row `r` is the greatest lower bound of `s2 Q - 2 (a_R · b_Q)` over the columns
  `Q < 2048 * (t % 8 + 1)` seen so far, for `R = 1024 * (t / 8) + r`. This is stated by the universal property of the
  minimum (`w` is below the scratch exactly when it is below every such term), which survives the re-grouping of the
  columns into blocks without any arithmetic on the extended reals. After the last column block every column has
  been seen, and the output row is the margin loss of that minimum plus the row's own squared norm; the law of
  `Spec.clamp_shift_min` turns it into the reference's form, `Spec.rowLoss`.
-/
import proofs.«118089_j86887188398391_2_alg».proof.Proof.Gen.KernelIdeal.Frame
import proofs.«118089_j86887188398391_2_alg».proof.Proof.KernelPieces
import proofs.«118089_j86887188398391_2_alg».proof.Proof.KernelPayload
import proofs.«118089_j86887188398391_2_alg».proof.Proof.KernelBlocks

set_option maxRecDepth 16384

noncomputable section

namespace Cert.KernelIdeal.Scratch

open Idealize.ShloMosaic Idealize.ShloMosaic.TcCoe Idealize.SL.Sem Idealize.ShloMosaic.ValueIdx
open Cert.KernelIdeal Cert.KernelIdeal.Gen

/-! ## The recursion, at any float instance -/

section AnyInstance

variable {F : FTy → Type} [FloatOps F]
variable (m : (ℓ : Loc nD τ sig) → Buf (Elt F) ℓ)

/-- At the first column block of a sweep the scratch is the update of the reset value by the point's blocks. -/
theorem scratch_at_first (c : Dev nD) (t : Fin cfg0.N) (h0 : t.val % 8 = 0) :
    (outsAt0 m c t.val t.isLt).2 = k0_pay2 (iblk m c 0 t) (iblk m c 1 t) (iblk m c 3 t) (k0_pay1 (F := F)) := by
  have h1 : ¬t.val % 8 = 7 := by omega
  rw [outsAt0_A m c t h0 h1]
  dsimp only
  exact Pieces.scratch_first (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk m c 0 t) (iblk m c 1 t) (iblk m c 2 t) (iblk m c 3 t)

/-- At every later column block it is the update of what the previous point left. -/
theorem scratch_at_later (c : Dev nD) (t : Fin cfg0.N) (h0 : ¬t.val % 8 = 0) :
    (outsAt0 m c t.val t.isLt).2 = k0_pay2 (iblk m c 0 t) (iblk m c 1 t) (iblk m c 3 t) (outsAt0 m c (t.val - 1) (Nat.lt_of_le_of_lt (Nat.sub_le _ _) t.isLt)).2 := by
  by_cases h1 : t.val % 8 = 7
  · rw [outsAt0_C m c t h0 h1]
    dsimp only
    exact Pieces.scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2
  · rw [outsAt0_B m c t h0 h1]
    dsimp only
    exact Pieces.scratch_middle (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2

/-- At the last column block the output block is the finishing step of the updated scratch and the block of squared
    norms of the first view's rows. -/
theorem out_at_last (c : Dev nD) (t : Fin cfg0.N) (h0 : ¬t.val % 8 = 0) (h1 : t.val % 8 = 7) :
    (outsAt0 m c t.val t.isLt).1 = k0_pay3 (outsAt0 m c t.val t.isLt).2 (iblk m c 2 t) := by
  rw [outsAt0_C m c t h0 h1]
  dsimp only
  exact (Pieces.out_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).trans
    (congrArg (fun v => k0_pay3 v (iblk m c 2 t))
      (Pieces.scratch_last (F := F) c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2).symm)

end AnyInstance

/-! ## The invariant, on the extended reals -/

section OnExtendedReals

variable (m : (ℓ : Loc nD τ sig) → Buf (Elt Ideal) ℓ)

/-- The squared norm of row `Q` of the second view, as the region finds it. -/
abbrev colNorm (c : Dev nD) (Q : Fin 16384) : EReal := V m c main_v5 (ix2 (0 : Fin 1) Q)
/-- The squared norm of row `R` of the first view, as the region finds it. -/
abbrev rowNorm (c : Dev nD) (R : Fin 16384) : EReal := V m c main_v2 (ix2 R (0 : Fin 1))
/-- Entry `(R, k)` of the first view, as the region finds it. -/
abbrev lhsAt (c : Dev nD) (R : Fin 16384) (k : Fin 512) : EReal := V m c main_v6 (ix2 R k)
/-- Entry `(Q, k)` of the second view, as the region finds it. -/
abbrev rhsAt (c : Dev nD) (Q : Fin 16384) (k : Fin 512) : EReal := V m c main_v7 (ix2 Q k)

/-- What is minimised over the columns `Q` at row `R`, in the arrays as the region finds them: the squared norm of row
    `Q` of the second view less twice the inner product of row `R` of the first view and row `Q` of the second. -/
abbrev shiftedAt (c : Dev nD) (R Q : Fin 16384) : EReal :=
  colNorm m c Q - (Ideal.ofBits .f32 0x40000000#32 : EReal) * ∑ k : Fin 512, lhsAt m c R k * rhsAt m c Q k

/-- A block's term at `(r, q)` is the arrays' term at the row and column the block covers. -/
theorem block_shifted (c : Dev nD) (t : Fin cfg0.N) (r : Fin 1024) (q : Fin 2048) (R Q : Fin 16384)
    (hR : R.val = 1024 * (t.val / 8) + r.val) (hQ : Q.val = 2048 * (t.val % 8) + q.val) :
    Payload.shifted (iblk m c 0 t) (iblk m c 1 t) (iblk m c 3 t) r q = shiftedAt m c R Q := by
  refine congrArg₂ (fun a b : EReal => a - (Ideal.ofBits .f32 0x40000000#32 : EReal) * b) (Blocks.sq2_block m c t (0 : Fin 1) q Q hQ)
    (Finset.sum_congr rfl fun k _ => ?_)
  exact congrArg₂ (fun a b : EReal => a * b) (Blocks.lhs_block m c t r k R hR) (Blocks.rhs_block m c t q k Q hQ)

/-- The lower bounds of one block's row minimum are the lower bounds of the terms at the columns the block covers. -/
theorem tile_lower_bounds (c : Dev nD) (t : Fin cfg0.N) (r : Fin 1024) (R : Fin 16384)
    (hR : R.val = 1024 * (t.val / 8) + r.val) (w : EReal) :
    w ≤ Finset.univ.fold min (⊤ : EReal) (Payload.shifted (iblk m c 0 t) (iblk m c 1 t) (iblk m c 3 t) r)
      ↔ ∀ Q : Fin 16384, 2048 * (t.val % 8) ≤ Q.val → Q.val < 2048 * (t.val % 8 + 1) → w ≤ shiftedAt m c R Q := by
  rw [Spec.le_fold_min_top]
  constructor
  · intro h Q hlo hhi
    have hq : Q.val - 2048 * (t.val % 8) < 2048 := by omega
    have hw := h ⟨Q.val - 2048 * (t.val % 8), hq⟩
    rwa [block_shifted m c t r ⟨Q.val - 2048 * (t.val % 8), hq⟩ R Q hR
      (by show Q.val = 2048 * (t.val % 8) + (Q.val - 2048 * (t.val % 8)); omega)] at hw
  · intro h q
    have hq : q.val < 2048 := q.isLt
    have hQ : 2048 * (t.val % 8) + q.val < 16384 := by omega
    rw [block_shifted m c t r q R ⟨2048 * (t.val % 8) + q.val, hQ⟩ hR rfl]
    exact h ⟨2048 * (t.val % 8) + q.val, hQ⟩ (by show 2048 * (t.val % 8) ≤ 2048 * (t.val % 8) + q.val; omega)
      (by show 2048 * (t.val % 8) + q.val < 2048 * (t.val % 8 + 1); omega)

/-- After the first column block of a sweep: the lower bounds of the scratch are those of the first block's terms. -/
theorem first_lower_bounds (c : Dev nD) (t : Fin cfg0.N) (h0 : t.val % 8 = 0) (r : Fin 1024) (R : Fin 16384)
    (hR : R.val = 1024 * (t.val / 8) + r.val) (w : EReal) :
    w ≤ (outsAt0 m c t.val t.isLt).2 (ix2 r (0 : Fin 1))
      ↔ ∀ Q : Fin 16384, Q.val < 2048 * (t.val % 8 + 1) → w ≤ shiftedAt m c R Q := by
  have e : (outsAt0 m c t.val t.isLt).2 (ix2 r (0 : Fin 1))
      = min (⊤ : EReal) (Finset.univ.fold min (⊤ : EReal) (Payload.shifted (iblk m c 0 t) (iblk m c 1 t) (iblk m c 3 t) r)) :=
    (congrFun (scratch_at_first m c t h0) (ix2 r (0 : Fin 1))).trans
      ((Payload.rowmin_apply (iblk m c 0 t) (iblk m c 1 t) (iblk m c 3 t) (k0_pay1 (F := Ideal)) r).trans
        (congrArg (fun v : EReal => min v _) (Payload.reset_apply (ix2 r (0 : Fin 1)))))
  rw [e, min_eq_right le_top, tile_lower_bounds m c t r R hR w]
  constructor
  · intro h Q hQ; exact h Q (by omega) hQ
  · intro h Q _ hQ; exact h Q hQ

/-- After a later column block: the scratch is the minimum of the previous scratch and the block's row minimum. -/
theorem later_eq (c : Dev nD) (t : Fin cfg0.N) (h0 : ¬t.val % 8 = 0) (r : Fin 1024) :
    (outsAt0 m c t.val t.isLt).2 (ix2 r (0 : Fin 1))
      = min ((outsAt0 m c (t.val - 1) (Nat.lt_of_le_of_lt (Nat.sub_le _ _) t.isLt)).2 (ix2 r (0 : Fin 1)))
          (Finset.univ.fold min (⊤ : EReal) (Payload.shifted (iblk m c 0 t) (iblk m c 1 t) (iblk m c 3 t) r)) :=
  (congrFun (scratch_at_later m c t h0) (ix2 r (0 : Fin 1))).trans
    (Payload.rowmin_apply (iblk m c 0 t) (iblk m c 1 t) (iblk m c 3 t) (outsAt0 m c (t.val - 1) (Nat.lt_of_le_of_lt (Nat.sub_le _ _) t.isLt)).2 r)

/-- THE INVARIANT. After point `n`, the lower bounds of the scratch at row `r` are the lower bounds of the terms at
    the columns of the blocks `0 … n % 8` of the sweep: by induction on the point. -/
theorem scratch_lower_bounds (c : Dev nD) : ∀ (n : ℕ) (hn : n < cfg0.N) (r : Fin 1024) (R : Fin 16384),
    R.val = 1024 * (n / 8) + r.val → ∀ w : EReal,
    (w ≤ (outsAt0 m c n hn).2 (ix2 r (0 : Fin 1))
      ↔ ∀ Q : Fin 16384, Q.val < 2048 * (n % 8 + 1) → w ≤ shiftedAt m c R Q)
  | 0, hn, r, R, hR, w => first_lower_bounds m c ⟨0, hn⟩ rfl r R hR w
  | n + 1, hn, r, R, hR, w => by
    by_cases h0 : (n + 1) % 8 = 0
    · exact first_lower_bounds m c ⟨n + 1, hn⟩ h0 r R hR w
    · have hR' : R.val = 1024 * (n / 8) + r.val := by omega
      have ih := scratch_lower_bounds c n (Nat.lt_of_succ_lt hn) r R hR' w
      have hstep : (w ≤ (outsAt0 m c (n + 1) hn).2 (ix2 r (0 : Fin 1)))
          ↔ (w ≤ (outsAt0 m c n (Nat.lt_of_succ_lt hn)).2 (ix2 r (0 : Fin 1))
              ∧ w ≤ Finset.univ.fold min (⊤ : EReal)
                  (Payload.shifted (iblk m c 0 ⟨n + 1, hn⟩) (iblk m c 1 ⟨n + 1, hn⟩) (iblk m c 3 ⟨n + 1, hn⟩) r)) := by
        rw [show (outsAt0 m c (n + 1) hn).2 (ix2 r (0 : Fin 1)) = _ from later_eq m c ⟨n + 1, hn⟩ h0 r]
        exact le_min_iff
      have htile := tile_lower_bounds m c ⟨n + 1, hn⟩ r R hR w
      rw [hstep, ih, htile]
      constructor
      · rintro ⟨ha, hb⟩ Q hQ
        by_cases hlt : Q.val < 2048 * (n % 8 + 1)
        · exact ha Q hlt
        · exact hb Q (by show 2048 * ((n + 1) % 8) ≤ Q.val; omega) (by show Q.val < 2048 * ((n + 1) % 8 + 1); omega)
      · intro h
        exact ⟨fun Q hQ => h Q (by omega), fun Q _ hQ => h Q hQ⟩

/-- After the last column block of a sweep every column has been seen. -/
theorem last_lower_bounds (c : Dev nD) (t : Fin cfg0.N) (h1 : t.val % 8 = 7) (r : Fin 1024) (R : Fin 16384)
    (hR : R.val = 1024 * (t.val / 8) + r.val) (w : EReal) :
    w ≤ (outsAt0 m c t.val t.isLt).2 (ix2 r (0 : Fin 1)) ↔ ∀ Q : Fin 16384, w ≤ shiftedAt m c R Q := by
  rw [scratch_lower_bounds m c t.val t.isLt r R hR w]
  constructor
  · intro h Q; exact h Q (by have := Q.isLt; omega)
  · intro h Q _; exact h Q

/-- THE OUTPUT ROW. At the last column block of a sweep, row `r` of the output block is the margin loss of row
    `R = 1024 * (t / 8) + r` in the reference's form: the kernel's "minimum first, then add the row's squared norm and
    clamp" is the reference's "clamped squared distance first, then minimum" by `Spec.clamp_shift_min`. -/
theorem out_row (c : Dev nD) (t : Fin cfg0.N) (h1 : t.val % 8 = 7) (r : Fin 1024) (u : Fin 1) (R : Fin 16384)
    (hR : R.val = 1024 * (t.val / 8) + r.val) :
    (outsAt0 m c t.val t.isLt).1 (ix2 r u)
      = Spec.rowLoss (V m c main_v2) (V m c main_v5) (V m c main_v6) (V m c main_v7) R := by
  have h0 : ¬t.val % 8 = 0 := by omega
  obtain rfl : u = 0 := Subsingleton.elim _ _
  have e1 : (outsAt0 m c t.val t.isLt).1 (ix2 r (0 : Fin 1))
      = Payload.margin ((outsAt0 m c t.val t.isLt).2 (ix2 r (0 : Fin 1)) + rowNorm m c R) :=
    (congrFun (out_at_last m c t h0 h1) (ix2 r (0 : Fin 1))).trans
      ((Payload.finish_apply (outsAt0 m c t.val t.isLt).2 (iblk m c 2 t) (ix2 r (0 : Fin 1))).trans
        (congrArg (fun v : EReal => Payload.margin ((outsAt0 m c t.val t.isLt).2 (ix2 r (0 : Fin 1)) + v))
          (Blocks.sq1_block m c t r (0 : Fin 1) R hR)))
  refine e1.trans ?_
  unfold Spec.rowLoss
  refine congrArg (fun d : EReal => max (Ideal.sqrt d - (Ideal.ofBits .f32 0x3DCCCCCD#32 : EReal)) (Ideal.ofBits .f32 0x00000000#32 : EReal)) ?_
  exact Spec.clamp_shift_min (colNorm m c)
    (fun Q : Fin 16384 => (Ideal.ofBits .f32 0x40000000#32 : EReal) * ∑ k : Fin 512, lhsAt m c R k * rhsAt m c Q k)
    (rowNorm m c R) (Ideal.ofBits .f32 0x00000000#32 : EReal) _ (last_lower_bounds m c t h1 r R hR)

end OnExtendedReals

end Cert.KernelIdeal.Scratch

end
-- ==== Proof.KernelOutArray.lean ====
/-
  The output array after the region: row `R` holds the margin loss of row `R` of the first view.

  The output is cut into 16 blocks of 1024 rows, one per row block of the grid, and a block is written back once, at
  the last column block of its sweep, when it holds the finished rows (`Scratch.out_row`). Row `R` of the array lies in
  the block of row block `R / 1024`, so the 16 write-backs cover the array and it ends holding `Spec.rowLoss` at
  every row.
-/
import proofs.«118089_j86887188398391_2_alg».proof.Proof.KernelScratch
import Idealize.ShloMosaic.Lib.Pipeline.Value

set_option maxRecDepth 16384

noncomputable section

namespace Cert.KernelIdeal.OutArray

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The array of row losses, over the arrays as the region finds them. -/
abbrev lossColumn (c : Dev nD) : Buf (Elt Ideal) ((c : Thread nD τ).loc main_v8) :=
  fun i => Spec.rowLoss (V m c main_v2) (V m c main_v5) (V m c main_v6) (V m c main_v7) (i 0)

/-- What a write-back writes is its block of the array of row losses. -/
theorem flushed_eq (c : Dev nD) (t : Fin cfg0.N) (hf : (cfg0.win 4).flush t = true) :
    (dats m 0 c).flushed 4 t = ((cfg0.win 4).blk t).view.read (Elt Ideal) (lossColumn m c) := by
  have h1 : t.val % 8 = 7 := (flush0_4 t).mp hf
  have hN : cfg0.N = 128 := N_0
  show (cfg0.win 4).cut (grid0.coords t) ((dats m 0 c).after 4 t) = _
  rw [after0_4]
  show ((outsAt0 m c t.val t.isLt).1 : Vec Ideal S1024x1 .f32) = _
  funext (y : S1024x1.Idx)
  obtain ⟨r, u, rfl⟩ : ∃ (r : Fin 1024) (u : Fin 1), y = ix2 r u := ⟨y 0, y 1, eq_ix2 y⟩
  have hr : r.val < 1024 := r.isLt
  have hRlt : 1024 * (t.val / 8) + r.val < 16384 := by have := t.isLt; omega
  rw [Scratch.out_row m c t h1 r u ⟨1024 * (t.val / 8) + r.val, hRlt⟩ rfl, View.read_apply]
  show Spec.rowLoss _ _ _ _ _ = Spec.rowLoss _ _ _ _ _
  refine congrArg (Spec.rowLoss (V m c main_v2) (V m c main_v5) (V m c main_v6) (V m c main_v7)) (Fin.ext ?_)
  show 1024 * (t.val / 8) + r.val = win0_4.index t 0 * 1024 + 1 * r.val
  rw [(Blocks.block_index t).2.2.2.2.1]; omega

/-- An index of the array is in point `t`'s block iff each coordinate is in the block's range on its axis. -/
theorem mem_block (t : Fin cfg0.N) (i : S16384x1.Idx) :
    i ∈ ((cfg0.win 4).blk t).view.set
      ↔ ∀ a : Fin 2, win0_4.index t a * S1024x1.size a ≤ (i a).val ∧ (i a).val < win0_4.index t a * S1024x1.size a + S1024x1.size a := by
  show i ∈ ((View.whole main_v8).slice (win0_4.rect t)).set ↔ _
  rw [View.set_slice_whole, Rect.mem_set_unit]
  exact Iff.rfl

/-- Every row of the array is written back, at the last column block of its row block's sweep. -/
theorem cover (i : S16384x1.Idx) :
    ∃ t : Fin cfg0.N, (cfg0.win 4).flush t = true ∧ i ∈ ((cfg0.win 4).blk t).view.set := by
  have hN : cfg0.N = 128 := N_0
  have hi0 : (i 0).val < 16384 := idx2_lt0 i
  have hi1 : (i 1).val < 1 := idx2_lt1 i
  have ht : 8 * ((i 0).val / 1024) + 7 < cfg0.N := by omega
  refine ⟨⟨8 * ((i 0).val / 1024) + 7, ht⟩, (flush0_4 _).mpr (by show (8 * ((i 0).val / 1024) + 7) % 8 = 7; omega), ?_⟩
  rw [mem_block]
  have hidx := (Blocks.block_index ⟨8 * ((i 0).val / 1024) + 7, ht⟩).2.2.2.2
  have e0 : win0_4.index ⟨8 * ((i 0).val / 1024) + 7, ht⟩ 0 = (8 * ((i 0).val / 1024) + 7) / 8 := hidx.1
  have e1 : win0_4.index ⟨8 * ((i 0).val / 1024) + 7, ht⟩ 1 = 0 := hidx.2
  intro a
  match a with
  | ⟨0, _⟩ =>
    show win0_4.index ⟨8 * ((i 0).val / 1024) + 7, ht⟩ 0 * 1024 ≤ (i 0).val
      ∧ (i 0).val < win0_4.index ⟨8 * ((i 0).val / 1024) + 7, ht⟩ 0 * 1024 + 1024
    rw [e0]; omega
  | ⟨1, _⟩ =>
    show win0_4.index ⟨8 * ((i 0).val / 1024) + 7, ht⟩ 1 * 1 ≤ (i 1).val
      ∧ (i 1).val < win0_4.index ⟨8 * ((i 0).val / 1024) + 7, ht⟩ 1 * 1 + 1
    rw [e1]; omega

/-- THE ARRAY after the region: the row losses. -/
theorem final (c : Dev nD) : (dats m 0 c).arrAt 4 cfg0.N = lossColumn m c :=
  (dats m 0 c).arrAt_eq_of_cover 4 (lossColumn m c) (flushed_eq m c) (cover)

end Cert.KernelIdeal.OutArray

end
-- ==== Proof.KernelResult.lean ====
/-
  The kernel program's result: the mean of the row losses, over the arrays its host prefix computes.

  After the region the host sums the output column from zero and divides by the number of rows. The sum over the
  indices of a one-column array is the sum over its rows, so the result is `Spec.meanLoss`. The arrays the region finds
  are the host prefix's terms of the two arguments: the column and the row of squared norms, and the two views
  themselves (their change of float format is the identity on the extended reals).
-/
import proofs.«118089_j86887188398391_2_alg».proof.Proof.KernelOutArray
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ) (ρ : Dev nD → PrngReg)

/-! ## The arrays the region finds -/

/-- The column of squared norms of the first view's rows. -/
theorem sq1_eq (c : Dev nD) :
    V m c main_v2 = broadcastInDim S16384x1 ![0] bcast_S16384_S16384x1_0
      (Host.reduceAdd (mulf (m ((c.tc : Thread nD τ).loc main_arg0)) (m ((c.tc : Thread nD τ).loc main_arg0))) (constant (F := Ideal) S_ .f32 0x00000000#32)
        reducesTo_S16384x512_S16384_d1 h_S_) := by
  show StableHlo.after hostOps0 (fun b => m (c, b)) (Proc.devRef .tc main_v2) = _
  after_results

/-- The row of squared norms of the second view's rows. -/
theorem sq2_eq (c : Dev nD) :
    V m c main_v5 = broadcastInDim S1x16384 ![1] bcast_S16384_S1x16384_1
      (Host.reduceAdd (mulf (m ((c.tc : Thread nD τ).loc main_arg1)) (m ((c.tc : Thread nD τ).loc main_arg1))) (constant (F := Ideal) S_ .f32 0x00000000#32)
        reducesTo_S16384x512_S16384_d1 h_S_) := by
  show StableHlo.after hostOps0 (fun b => m (c, b)) (Proc.devRef .tc main_v5) = _
  after_results

/-- The first view, its float format changed: the same extended reals. -/
theorem lhs_eq (c : Dev nD) : (V m c main_v6 : S16384x512.Idx → EReal) = m ((c.tc : Thread nD τ).loc main_arg0) := by
  show StableHlo.after hostOps0 (fun b => m (c, b)) (Proc.devRef .tc main_v6) = _
  after_results
  exact funext fun _ => rfl

/-- The second view, likewise. -/
theorem rhs_eq (c : Dev nD) : (V m c main_v7 : S16384x512.Idx → EReal) = m ((c.tc : Thread nD τ).loc main_arg1) := by
  show StableHlo.after hostOps0 (fun b => m (c, b)) (Proc.devRef .tc main_v7) = _
  after_results
  exact funext fun _ => rfl

/-! ## The host's mean over the output column -/

/-- The sum of the output column is the sum of the row losses. -/
theorem sum_lossColumn (c : Dev nD) :
    ∑ i : S16384x1.Idx, Spec.rowLoss (V m c main_v2) (V m c main_v5) (V m c main_v6) (V m c main_v7) (i 0)
      = ∑ R : Fin 16384, Spec.rowLoss (V m c main_v2) (V m c main_v5) (V m c main_v6) (V m c main_v7) R :=
  Spec.sum_column (n := 16384) (fun i => Spec.rowLoss (V m c main_v2) (V m c main_v5) (V m c main_v6) (V m c main_v7) (i 0))

/-- The result buffer after the host's last lines: the mean of the row losses. -/
theorem tail_value (c : Dev nD) :
    Pipeline.afterTail₀ cfgs (dats m) 0 (V0 m) [hostOps1] c main_v10 = fun _ => Spec.meanLoss (V m c main_v2) (V m c main_v5) (V m c main_v6) (V m c main_v7) := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v8)
      = OutArray.lossColumn m c :=
    (Pipeline.withArrays_arr spec0 launch0.win.arr_inj c _ _ 4).trans (OutArray.final m c)
  rw [e]
  funext i
  show Ideal.div (Ideal.hostReduceAdd reducesTo_S16384x1_S_d0_1 (OutArray.lossColumn m c) _ i) _ = _
  rw [Ideal.hostReduceAdd_total reducesTo_S16384x1_S_d0_1 (fun b => b.elim0) (OutArray.lossColumn m c) _ i]
  unfold Spec.meanLoss
  exact congrArg (fun s : EReal => Ideal.div ((Ideal.ofBits .f32 0x00000000#32 : EReal) + s) (Ideal.ofBits .f32 0x46800000#32 : EReal))
    (sum_lossColumn m c)

/-! ## The run, read -/

/-- Every weakly fair execution of the kernel program terminates with the result buffer at the mean of the row losses
    and the two arguments unchanged. -/
theorem run : θ_run defs (onTc (τ := τ) (main (F := Ideal))) ⟨m, fun _ => 0, ρ⟩ fun r => ∀ c : Dev nD,
      r.2.mem ((c.tc : Thread nD τ).loc main_v10) = (fun _ => Spec.meanLoss (V m c main_v2) (V m c main_v5) (V m c main_v6) (V m c main_v7))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v10 (Pipeline.mem_restRefs_of main_v10 (by decide) (by decide))).trans (tail_value m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.Result

end
-- ==== Proof.RefValue.lean ====
/-
  The reference's result, read on the extended reals, is the mean of the row losses.

  Entry `(R, Q)` of the reference's clamped squared-distance matrix is
  `max ((s1 R + s2 Q) - 2 (a_R · b_Q)) 0`: the two broadcasts read the column and the row of squared norms, and the
  product with the transposed second view contracts the feature axis, so its entry is the inner product of row `R` of
  the first view and row `Q` of the second. The row minimum, taken from `+∞`, the square root, the margin, the clamp,
  the sum from zero and the division by the number of rows are then `Spec.rowLoss` and `Spec.meanLoss` term for term.
-/
import proofs.«118089_j86887188398391_2_alg».proof.Proof.Gen.ReferenceIdeal.Read
import proofs.«118089_j86887188398391_2_alg».proof.Proof.Spec
import proofs.«118089_j86887188398391_2_alg».proof.Proof.LibMinReduce

noncomputable section

namespace Cert.ReferenceIdeal.RefValue

open Idealize.ShloMosaic Idealize.ShloMosaic.ValueIdx
open Cert.ReferenceIdeal Cert.ReferenceIdeal.Gen Cert.ReferenceIdeal.Read

/-! ## Where each layout operation reads -/

theorem col_idx (R Q : Fin 16384) : idx_main_v8 (ix2 R Q) = ix2 R (0 : Fin 1) :=
  funext fun a => Fin.ext (by match a with | ⟨0, _⟩ => rfl | ⟨1, _⟩ => rfl)
theorem row_idx (R Q : Fin 16384) : idx_main_v9 (ix2 R Q) = ix2 (0 : Fin 1) Q :=
  funext fun a => Fin.ext (by match a with | ⟨0, _⟩ => rfl | ⟨1, _⟩ => rfl)
theorem lhs_idx (R Q : Fin 16384) (k : Fin 512) : lidx_main_v6 (ix2 R Q) k = ix2 R k :=
  funext fun a => Fin.ext (by match a with | ⟨0, _⟩ => rfl | ⟨1, _⟩ => rfl)
theorem rhs_idx (R Q : Fin 16384) (k : Fin 512) : idx_main_v5 (ridx_main_v6 (ix2 R Q) k) = ix2 Q k :=
  funext fun a => Fin.ext (by match a with | ⟨0, _⟩ => rfl | ⟨1, _⟩ => rfl)
/-- The distance matrix reduces along its columns to a vector of its rows. -/
theorem reduces_cols : S16384x16384.Reduces [1] S16384 := by decide
theorem min_idx (R Q : Fin 16384) : reduces_cols.lift (ix1 R) Q = ix2 R Q :=
  funext fun a => Fin.ext (by match a with | ⟨0, _⟩ => rfl | ⟨1, _⟩ => rfl)

/-! ## The clamped squared distance at an entry -/

/-- Entry `(R, Q)` of the clamped squared-distance matrix. -/
theorem dist_apply (x0 x1 : (⟨S16384x512, .f32⟩ : BufTy).Contents (Elt Ideal)) (R Q : Fin 16384) :
    val_main_v15 (F := Ideal) x0 x1 (ix2 R Q)
      = max ((val_main_v2 (F := Ideal) x0 (ix2 R (0 : Fin 1)) + val_main_v7 (F := Ideal) x1 (ix2 (0 : Fin 1) Q))
          - (Ideal.ofBits .f32 0x40000000#32 : EReal) * ∑ k : Fin 512, x0 (ix2 R k) * x1 (ix2 Q k))
        (Ideal.ofBits .f32 0x00000000#32 : EReal) := by
  rw [val_main_v15_apply, val_main_v13_apply, val_main_v10_apply, val_main_v8_apply, val_main_v9_apply,
    val_main_v12_apply, val_main_v11_apply, val_main_v6_apply, val_main_v14_apply, col_idx, row_idx]
  simp only [val_main_v5_apply, lhs_idx, rhs_idx, val_main_cst_1_apply, val_main_cst_2_apply, Ideal.maximumf_def,
    Ideal.subf_def, Ideal.addf_def, Ideal.mulf_def, Ideal.ofBits_def]

/-! ## A row's loss and the mean -/

/-- Entry `R` of the clamped margin losses is the row loss. -/
theorem loss_apply (x0 x1 : (⟨S16384x512, .f32⟩ : BufTy).Contents (Elt Ideal)) (R : Fin 16384) :
    val_main_v20 (F := Ideal) x0 x1 (ix1 R)
      = Spec.rowLoss (val_main_v2 (F := Ideal) x0) (val_main_v7 (F := Ideal) x1) x0 x1 R := by
  rw [val_main_v20_apply, val_main_v19_apply, val_main_v17_apply, val_main_v18_apply, val_main_call0_v0_apply]
  have hmin : val_main_v16 (F := Ideal) x0 x1 (ix1 R)
      = Finset.univ.fold min (⊤ : EReal) fun Q : Fin 16384 =>
          max ((val_main_v2 (F := Ideal) x0 (ix2 R (0 : Fin 1)) + val_main_v7 (F := Ideal) x1 (ix2 (0 : Fin 1) Q))
            - (Ideal.ofBits .f32 0x40000000#32 : EReal) * ∑ k : Fin 512, x0 (ix2 R k) * x1 (ix2 Q k)) (Ideal.ofBits .f32 0x00000000#32 : EReal) := by
    unfold val_main_v16
    refine (LibMinReduce.hostReduce_minimumf_single (φ := .f32) (val_main_v15 (F := Ideal) x0 x1) (val_main_cst_3 (F := Ideal))
      reducesTo_S16384x16384_S16384_d1 reduces_cols h_S_ (ix1 R)).trans ?_
    refine congrArg₂ (fun b f => (Finset.univ : Finset (Fin 16384)).fold min b f) Spec.inf_eq_top (funext fun Q => ?_)
    exact (congrArg (val_main_v15 (F := Ideal) x0 x1) (min_idx R Q)).trans (dist_apply x0 x1 R Q)
  rw [hmin]
  unfold Spec.rowLoss
  simp only [val_main_cst_4_apply, val_main_call0_cst_apply, Ideal.maximumf_def, Ideal.subf_def, Ideal.hostUnary_sqrt_def,
    Ideal.ofBits_def]

/-- The reference's result: the mean of the row losses. -/
theorem result_eq (x0 x1 : (⟨S16384x512, .f32⟩ : BufTy).Contents (Elt Ideal)) :
    val_main_v22 (F := Ideal) x0 x1
      = fun _ => Spec.meanLoss (val_main_v2 (F := Ideal) x0) (val_main_v7 (F := Ideal) x1) x0 x1 := by
  funext i
  rw [val_main_v22_apply, val_main_v21_apply, Spec.sum_vector]
  unfold Spec.meanLoss
  simp only [val_main_cst_5_apply, val_main_cst_6_apply, Ideal.hostDivf_def, Ideal.ofBits_def]
  refine congrArg (fun s : EReal => Ideal.div ((Ideal.ofBits .f32 0x00000000#32 : EReal) + s) (Ideal.ofBits .f32 0x46800000#32 : EReal)) ?_
  exact Finset.sum_congr rfl fun R _ => loss_apply x0 x1 R

end Cert.ReferenceIdeal.RefValue

end
-- ==== Proof.lean ====
/-
  The kernel computes, for two views of 16384 feature rows each, the mean over the rows `R` of the first view of the
  margin loss `max (√(d R) - margin) 0`, where `d R` is the least squared distance from row `R` to a row of the second
  view, and the squared distance is expanded as `|a|² + |b|² - 2 a·b` and clamped at `0`.

  The reference clamps every squared distance and then takes the row minimum. The kernel walks the distance matrix in
  16 × 8 blocks, keeps the running row minimum of `|b|² - 2 a·b` alone in a scratch column across the 8 column blocks of
  a row sweep, and only after the last block adds `|a|²`, clamps, takes the square root and applies the margin. On the
  extended reals the two agree, because adding `|a|²` and clamping is a monotone map and a monotone map commutes with a
  minimum over a nonempty finite set (`Spec.clamp_shift_min`); the re-grouping of the minimum into blocks is carried by
  the minimum's universal property (`Scratch.scratch_lower_bounds`). The change of float format of the matrix product's
  operands is the identity on the extended reals, the two programs' literals are the same words, and both end with the
  same sum from zero and division by the number of rows. The precondition is not used: no step needs finiteness.

  The modules: `Spec` (the law and the closed form), `KernelPieces`, `KernelPayload`, `KernelBlocks`, `KernelScratch`,
  `KernelOutArray`, `KernelResult` (the kernel program's result is the closed form), `RefValue` (so is the reference's).
-/
import proofs.«118089_j86887188398391_2_alg».proof.Defs
import proofs.«118089_j86887188398391_2_alg».proof.Proof.Gen.Kernel
import proofs.«118089_j86887188398391_2_alg».proof.Proof.Gen.Kernel.Skeleton
import proofs.«118089_j86887188398391_2_alg».proof.Proof.Gen.Kernel.Launch
import proofs.«118089_j86887188398391_2_alg».proof.Proof.Gen.Kernel.Points
import proofs.«118089_j86887188398391_2_alg».proof.Proof.Gen.Kernel.Frame
import proofs.«118089_j86887188398391_2_alg».proof.Proof.Gen.KernelIdeal
import proofs.«118089_j86887188398391_2_alg».proof.Proof.Gen.KernelIdeal.Skeleton
import proofs.«118089_j86887188398391_2_alg».proof.Proof.Gen.KernelIdeal.Launch
import proofs.«118089_j86887188398391_2_alg».proof.Proof.Gen.KernelIdeal.Points
import proofs.«118089_j86887188398391_2_alg».proof.Proof.Gen.KernelIdeal.Frame
import proofs.«118089_j86887188398391_2_alg».proof.Proof.Gen.ReferenceIdeal
import proofs.«118089_j86887188398391_2_alg».proof.Proof.Gen.Pre_finite_inputs
import proofs.«118089_j86887188398391_2_alg».proof.Proof.Gen.ReferenceIdeal.Run
import proofs.«118089_j86887188398391_2_alg».proof.Proof.Gen.ReferenceIdeal.Read
import proofs.«118089_j86887188398391_2_alg».proof.Proof.KernelResult
import proofs.«118089_j86887188398391_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the two views, both programs end with the mean of the row losses of those views. -/
theorem algebraic : Cert.algebraic_KernelIdeal_ReferenceIdeal := by
  intro m ρ m' ρ' _ hagree
  refine ⟨fun c => fun _ => Spec.meanLoss (Cert.KernelIdeal.Gen.V m c Cert.KernelIdeal.main_v2)
      (Cert.KernelIdeal.Gen.V m c Cert.KernelIdeal.main_v5) (Cert.KernelIdeal.Gen.V m c Cert.KernelIdeal.main_v6)
      (Cert.KernelIdeal.Gen.V m c Cert.KernelIdeal.main_v7), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.result_eq, (hagree c).1, (hagree c).2]
  show _ = fun _ => Spec.meanLoss (Cert.KernelIdeal.Gen.V m c Cert.KernelIdeal.main_v2)
      (Cert.KernelIdeal.Gen.V m c Cert.KernelIdeal.main_v5) (Cert.KernelIdeal.Gen.V m c Cert.KernelIdeal.main_v6)
      (Cert.KernelIdeal.Gen.V m c Cert.KernelIdeal.main_v7)
  rw [Cert.KernelIdeal.Result.sq1_eq m c, Cert.KernelIdeal.Result.sq2_eq m c, Cert.KernelIdeal.Result.lhs_eq m c,
    Cert.KernelIdeal.Result.rhs_eq m c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
